-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x256 : Shape := ⟨2, ![1024, 256]⟩
abbrev S256 : Shape := ⟨1, ![256]⟩
abbrev S100x256 : Shape := ⟨2, ![100, 256]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S100x256 : S_.BroadcastsInDim S100x256 (![] : Fin 0 → Fin S100x256.rank)
  reducesTo_S100x256_S_d0_1 : S100x256.ReducesTo [0, 1] S_

variable [Facts]

def fn_part1 {F : FTy → Type} [FloatOps F] (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  main_v18

def fn {F : FTy → Type} [FloatOps F] (main_arg0 : FVec F S16384x1024 .f32) (main_arg1 : FVec F S1024x256 .f32) (main_arg2 : FVec F S256 .f32) (main_arg3 : FVec F S100x256 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100x256 .f32 := Host.absf main_arg3
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_v13 main_v16
-- ==== Kernel.lean ====
abbrev S16384x1024 : Shape := ⟨2, ![16384, 1024]⟩
abbrev S1024x256 : Shape := ⟨2, ![1024, 256]⟩
abbrev S256 : Shape := ⟨1, ![256]⟩
abbrev S100x256 : Shape := ⟨2, ![100, 256]⟩
abbrev S_ : Shape := ⟨0, ![]⟩
abbrev S128x256 : Shape := ⟨2, ![128, 256]⟩
abbrev S128 : Shape := ⟨1, ![128]⟩
abbrev S1x128 : Shape := ⟨2, ![1, 128]⟩
abbrev S1x256 : Shape := ⟨2, ![1, 256]⟩
abbrev S16384x128 : Shape := ⟨2, ![16384, 128]⟩
abbrev S2048x1024 : Shape := ⟨2, ![2048, 1024]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S16384x100 : Shape := ⟨2, ![16384, 100]⟩

abbrev nBuf : Space → Nat
  | .hbm => 14
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S256, .f32⟩
  | .hbm, ⟨3, _⟩ => ⟨S100x256, .f32⟩
  | .hbm, ⟨4, _⟩ => ⟨S_, .i32⟩
  | .hbm, ⟨5, _⟩ => ⟨S_, .f32⟩
  | .hbm, ⟨6, _⟩ => ⟨S128x256, .f32⟩
  | .hbm, ⟨7, _⟩ => ⟨S128x256, .f32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S1x256, .f32⟩
  | .hbm, ⟨12, _⟩ => ⟨S16384x128, .f32⟩
  | .hbm, ⟨13, _⟩ => ⟨S16384x100, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1x256, .f32⟩
  | .local _ .vmem, ⟨4, _⟩ => ⟨S128x256, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S100x256_S128x256_0280_000 : S100x256.Pads (![0, 0] : Fin 2 → Nat) ![28, 0] ![0, 0] S128x256
  h_S_ : 0 < S_.numel
  reducesTo_S128x256_S128_d1 : S128x256.ReducesTo [1] S128
  shapeCasts_S128_S1x128 : S128.ShapeCasts S1x128
  shapeCasts_S256_S1x256 : S256.ShapeCasts S1x256
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S2048x1_S2048x128 : S2048x1.Broadcasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S16384x128_S16384x100_0_0 : S16384x128.Slices ![0, 0] S16384x100
  dot_S2048x1024_S1024x256_S2048x256_1_0_0_1_n_n_wf : DotDims.WF S2048x1024 S1024x256 S2048x256 [1] [0] [0] [1] [] []
  dot_S2048x256_S128x256_S2048x128_1_1_0_0_n_n_wf : DotDims.WF S2048x256 S128x256 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S16384x128.size a
  hwx0_5 : ∀ i : grid0.Coords, EltTy.bits .f32 = 32 ∨ (Rect.block (s := S16384x128) S2048x128.size (cc0_transform_5 i) (hinb0_5 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x256 : Shape := ⟨2, ![1024, 256]⟩
abbrev S256 : Shape := ⟨1, ![256]⟩
abbrev S100x256 : Shape := ⟨2, ![100, 256]⟩
abbrev S16384x256 : Shape := ⟨2, ![16384, 256]⟩
abbrev S1x256 : Shape := ⟨2, ![1, 256]⟩
abbrev S_ : Shape := ⟨0, ![]⟩
abbrev S16384 : Shape := ⟨1, ![16384]⟩
abbrev S16384x1 : Shape := ⟨2, ![16384, 1]⟩
abbrev S256x100 : Shape := ⟨2, ![256, 100]⟩
abbrev S16384x100 : Shape := ⟨2, ![16384, 100]⟩
abbrev S100 : Shape := ⟨1, ![100]⟩
abbrev S1x100 : Shape := ⟨2, ![1, 100]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S256, .f32⟩
  | .hbm, ⟨3, _⟩ => ⟨S100x256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S256x100, .f32⟩
  | .hbm, ⟨13, _⟩ => ⟨S16384x100, .f32⟩
  | .hbm, ⟨14, _⟩ => ⟨S_, .f32⟩
  | .hbm, ⟨15, _⟩ => ⟨S16384x100, .f32⟩
  | .hbm, ⟨16, _⟩ => ⟨S16384x100, .f32⟩
  | .hbm, ⟨17, _⟩ => ⟨S16384x100, .f32⟩
  | .hbm, ⟨18, _⟩ => ⟨S16384x100, .f32⟩
  | .hbm, ⟨19, _⟩ => ⟨S100x256, .f32⟩
  | .hbm, ⟨20, _⟩ => ⟨S_, .f32⟩
  | .hbm, ⟨21, _⟩ => ⟨S100, .f32⟩
  | .hbm, ⟨22, _⟩ => ⟨S1x100, .f32⟩
  | .hbm, ⟨23, _⟩ => ⟨S16384x100, .f32⟩
  | .hbm, ⟨24, _⟩ => ⟨S16384x100, .f32⟩
  | .hbm, ⟨25, _⟩ => ⟨S16384x100, .f32⟩
  | .hbm, ⟨26, _⟩ => ⟨S_, .f32⟩
  | .hbm, ⟨27, _⟩ => ⟨S16384x100, .f32⟩
  | .hbm, ⟨28, _⟩ => ⟨S16384x100, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  h_S_ : 0 < S_.numel
  bcast_S16384_S16384x1_0 : S16384.BroadcastsInDim S16384x1 (![0] : Fin 1 → Fin S16384x1.rank)
  transposes_S100x256_S256x100_1_0 : S100x256.Transposes [1, 0] S256x100
  bcast_S_S16384x100 : S_.BroadcastsInDim S16384x100 (![] : Fin 0 → Fin S16384x100.rank)
  bcast_S16384x1_S16384x100_0_1 : S16384x1.BroadcastsInDim S16384x100 (![0, 1] : Fin 2 → Fin S16384x100.rank)
  reducesTo_S100x256_S100_d1 : S100x256.ReducesTo [1] S100
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  dot_S16384x1024_S1024x256_S16384x256_1_0_0_1_n_n_wf : DotDims.WF S16384x1024 S1024x256 S16384x256 [1] [0] [0] [1] [] []
  dot_S16384x256_S256x100_S16384x100_1_0_0_1_n_n_wf : DotDims.WF S16384x256 S256x100 S16384x100 [1] [0] [0] [1] [] []

variable [Facts₀]

def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x256_S256x100_S16384x100_1_0_0_1_n_n : DotDims S16384x256 S256x100 S16384x100 where
  lhsContracting := [1]
  rhsContracting := [0]
  lhsNonContracting := [0]
  rhsNonContracting := [1]
  lhsBatch := []
  rhsBatch := []
  wf := dot_S16384x256_S256x100_S16384x100_1_0_0_1_n_n_wf

class Facts : Prop extends Facts₀ where

variable [Facts]
-- ==== Proof.Cell.lean ====
/-
  One entry of the negated mean squared distance between an encoded row and a prototype.

  For an input row `xr` (1024 numbers), weights `W` (1024 × 256) and bias `b`, the encoded row is
  `z d = (∑ k, xr k · W k d) + b d`.  For a prototype `p` (256 numbers) with squared norm `pn`, the entry is

      −((∑ d, z d · z d) − 2 · (∑ d, z d · p d) + pn) / 256,

  the expansion of −|z − p|² / 256.  Everything is over the extended reals; the constants 2 and 256 stay the float
  words that denote them, and the quotient is the ideal instance's division.  The whole result array is this entry
  at row `i 0` of the input and row `i 1` of the prototype table.
-/
import Idealize.ShloMosaic.PureOps.Ideal
import Idealize.ShloMosaic.PureOps.Ideal.Laws
import Idealize.ShloMosaic.Lib.ValueIdx

noncomputable section

open scoped BigOperators

namespace Cert.ProtoDist

open Idealize.ShloMosaic Idealize.ShloMosaic.ValueIdx

/-- Feature `d` of the encoded row: the row's product with column `d` of the weights, plus the bias. -/
def enc (xr : Fin 1024 → EReal) (W : Fin 1024 → Fin 256 → EReal) (b : Fin 256 → EReal) (d : Fin 256) : EReal :=
  (∑ k : Fin 1024, xr k * W k d) + b d

/-- The entry for an encoded row `z`, a prototype `p` and the prototype's squared norm `pn`:
    minus (|z|² − 2·⟨z, p⟩ + pn), over 256. -/
def cell (z p : Fin 256 → EReal) (pn : EReal) : EReal :=
  Ideal.div (-(((∑ d : Fin 256, z d * z d) - Ideal.ofBits .f32 0x40000000#32 * ∑ d : Fin 256, z d * p d) + pn))
    (Ideal.ofBits .f32 0x43800000#32)

/-- The result array: entry (r, c) is `cell` of row `r` of `x` encoded by `W` and `b`, against row `c` of the
    prototype table `P` and that row's squared norm. -/
def negMse (x : (⟨2, ![16384, 1024]⟩ : Shape).Idx → EReal) (W : (⟨2, ![1024, 256]⟩ : Shape).Idx → EReal)
    (b : (⟨1, ![256]⟩ : Shape).Idx → EReal) (P : (⟨2, ![100, 256]⟩ : Shape).Idx → EReal) :
    (⟨2, ![16384, 100]⟩ : Shape).Idx → EReal := fun i =>
  cell (enc (fun k => x (ix2 (n0 := 16384) (n1 := 1024) (i 0) k)) (fun k d => W (ix2 (n0 := 1024) (n1 := 256) k d))
      (fun d => b (ix1 (n := 256) d)))
    (fun d => P (ix2 (n0 := 100) (n1 := 256) (i 1) d))
    (∑ d : Fin 256, P (ix2 (n0 := 100) (n1 := 256) (i 1) d) * P (ix2 (n0 := 100) (n1 := 256) (i 1) d))

/-- The array the kernel's region writes, 128 columns wide: entry (r, q) is `cell` of row `r` of `x` encoded by `W` and the
    bias given as one row `b2`, against row `q` of a 128-row table `Pp` and entry `q` of a row `nn` of norms. With `Pp` the
    prototype table padded with 28 rows and `nn` its rows' squared norms, columns 0 … 99 are `negMse`. -/
def negMsePadded (x : (⟨2, ![16384, 1024]⟩ : Shape).Idx → EReal) (W : (⟨2, ![1024, 256]⟩ : Shape).Idx → EReal)
    (b2 : (⟨2, ![1, 256]⟩ : Shape).Idx → EReal) (Pp : (⟨2, ![128, 256]⟩ : Shape).Idx → EReal)
    (nn : (⟨2, ![1, 128]⟩ : Shape).Idx → EReal) : (⟨2, ![16384, 128]⟩ : Shape).Idx → EReal := fun i =>
  cell (enc (fun k => x (ix2 (n0 := 16384) (n1 := 1024) (i 0) k)) (fun k d => W (ix2 (n0 := 1024) (n1 := 256) k d))
      (fun d => b2 (ix2 (n0 := 1) (n1 := 256) 0 d)))
    (fun d => Pp (ix2 (n0 := 128) (n1 := 256) (i 1) d)) (nn (ix2 (n0 := 1) (n1 := 128) 0 (i 1)))

/-- The coordinates of an index built from coordinates. -/
theorem ix2_fst {n0 n1 : Nat} (a : Fin n0) (b : Fin n1) : ix2 a b 0 = a := rfl
theorem ix2_snd {n0 n1 : Nat} (a : Fin n0) (b : Fin n1) : ix2 a b 1 = b := rfl
theorem ix1_fst {n : Nat} (a : Fin n) : ix1 a 0 = a := rfl

end Cert.ProtoDist

end
-- ==== Proof.RefValue.lean ====
/-
  The reference computes `negMse`.

  Its program is a chain of whole-array operations: x·W, plus the bias broadcast over the rows, squared and summed
  along the features; the product with the transposed prototype table, doubled; the prototypes' squared norms
  broadcast over the rows; the three combined, negated and divided by 256.  Read at one index (r, c), each
  operation reads its operands at one index (a broadcast drops or repeats a coordinate, the transpose swaps the two),
  and each sum runs over the contracted or reduced axis: the entry is `cell` of row r and prototype c.  The host's
  sums start from the zero word, which is 0.
-/
import proofs.«146590_j49993419325594_2_alg».proof.Proof.Gen.ReferenceIdeal.Read
import proofs.«146590_j49993419325594_2_alg».proof.Proof.Cell

noncomputable section

open scoped BigOperators

namespace Cert.ReferenceIdeal.RefValue

open Cert.ReferenceIdeal Cert.ReferenceIdeal.Gen Cert.ReferenceIdeal.Read
open Idealize.ShloMosaic Idealize.ShloMosaic.ValueIdx Cert.ProtoDist

/-! ## Where each operation reads its operands -/

theorem lidx0 (j : S16384x256.Idx) (k : Fin 1024) : lidx_main_v0 j k = ix2 (n0 := 16384) (n1 := 1024) (j 0) k :=
  funext fun a => Fin.ext (by match a with | ⟨0, _⟩ => rfl | ⟨1, _⟩ => rfl)
theorem ridx0 (j : S16384x256.Idx) (k : Fin 1024) : ridx_main_v0 j k = ix2 (n0 := 1024) (n1 := 256) k (j 1) :=
  funext fun a => Fin.ext (by match a with | ⟨0, _⟩ => rfl | ⟨1, _⟩ => rfl)
theorem idx1 (j : S1x256.Idx) : idx_main_v1 j = ix1 (n := 256) (j 1) :=
  funext fun a => Fin.ext (by match a with | ⟨0, _⟩ => rfl)
theorem idx2 (j : S16384x256.Idx) : idx_main_v2 j = ix2 (n0 := 1) (n1 := 256) ⟨0, Nat.one_pos⟩ (j 1) :=
  funext fun a => Fin.ext (by match a with | ⟨0, _⟩ => rfl | ⟨1, _⟩ => rfl)
theorem idx5 (j : S16384.Idx) (k : Fin 256) : idx_main_v5 j k = ix2 (n0 := 16384) (n1 := 256) (j 0) k :=
  funext fun a => Fin.ext (by match a with | ⟨0, _⟩ => rfl | ⟨1, _⟩ => rfl)
theorem idx6 (j : S16384x1.Idx) : idx_main_v6 j = ix1 (n := 16384) (j 0) :=
  funext fun a => Fin.ext (by match a with | ⟨0, _⟩ => rfl)
theorem idx11 (i : S16384x100.Idx) : idx_main_v11 i = ix2 (n0 := 16384) (n1 := 1) (i 0) ⟨0, Nat.one_pos⟩ :=
  funext fun a => Fin.ext (by match a with | ⟨0, _⟩ => rfl | ⟨1, _⟩ => rfl)
theorem idx7 (j : S256x100.Idx) : idx_main_v7 j = ix2 (n0 := 100) (n1 := 256) (j 1) (j 0) :=
  funext fun a => Fin.ext (by match a with | ⟨0, _⟩ => rfl | ⟨1, _⟩ => rfl)
theorem lidx8 (i : S16384x100.Idx) (k : Fin 256) : lidx_main_v8 i k = ix2 (n0 := 16384) (n1 := 256) (i 0) k :=
  funext fun a => Fin.ext (by match a with | ⟨0, _⟩ => rfl | ⟨1, _⟩ => rfl)
theorem ridx8 (i : S16384x100.Idx) (k : Fin 256) : ridx_main_v8 i k = ix2 (n0 := 256) (n1 := 100) k (i 1) :=
  funext fun a => Fin.ext (by match a with | ⟨0, _⟩ => rfl | ⟨1, _⟩ => rfl)
theorem idx14 (j : S100.Idx) (k : Fin 256) : idx_main_v14 j k = ix2 (n0 := 100) (n1 := 256) (j 0) k :=
  funext fun a => Fin.ext (by match a with | ⟨0, _⟩ => rfl | ⟨1, _⟩ => rfl)
theorem idx15 (j : S1x100.Idx) : idx_main_v15 j = ix1 (n := 100) (j 1) :=
  funext fun a => Fin.ext (by match a with | ⟨0, _⟩ => rfl)
theorem idx16 (i : S16384x100.Idx) : idx_main_v16 i = ix2 (n0 := 1) (n1 := 100) ⟨0, Nat.one_pos⟩ (i 1) :=
  funext fun a => Fin.ext (by match a with | ⟨0, _⟩ => rfl | ⟨1, _⟩ => rfl)

/-! ## The result, index by index -/

/-- The reference's last stage is `negMse` of its four arguments. -/
theorem result_eq (x : (⟨S16384x1024, .f32⟩ : BufTy).Contents (Elt Ideal)) (W : (⟨S1024x256, .f32⟩ : BufTy).Contents (Elt Ideal))
    (b : (⟨S256, .f32⟩ : BufTy).Contents (Elt Ideal)) (P : (⟨S100x256, .f32⟩ : BufTy).Contents (Elt Ideal)) :
    val_main_v20 (F := Ideal) x W b P = negMse x W b P := by
  funext i
  simp only [val_main_v20_apply, val_main_v18_apply, val_main_v17_apply, val_main_v12_apply, val_main_v11_apply,
    val_main_v6_apply, val_main_v5_apply, val_main_v10_apply, val_main_v9_apply, val_main_cst_0_apply, val_main_v8_apply,
    val_main_v16_apply, val_main_v15_apply, val_main_v14_apply, val_main_v19_apply, val_main_cst_2_apply,
    val_main_cst_apply, val_main_cst_1_apply, val_main_v4_apply, val_main_v3_apply, val_main_v0_apply,
    val_main_v2_apply, val_main_v1_apply, val_main_v7_apply, val_main_v13_apply,
    lidx0, ridx0, idx1, idx2, idx5, idx6, idx11, idx7, lidx8, ridx8, idx14, idx15, idx16,
    Ideal.hostDivf_def, Ideal.hostNegf_def, Ideal.negf_def, Ideal.addf_def, Ideal.subf_def, Ideal.mulf_def,
    Ideal.ofBits_def, Ideal.ofBits_zero_f32, zero_add]
  rfl

end Cert.ReferenceIdeal.RefValue

end
-- ==== Proof.Payload.lean ====
/-
  What the kernel body stores, read at one index of its block.

  At a grid point the body holds a block of 2048 input rows `x0`, the whole weights `x1`, the bias as one row `x2`, the
  prototype table padded to 128 rows `x3`, and the padded table's squared row norms as one row `x4`.  It encodes the
  rows (a product into a zero accumulator, plus the bias row repeated down the block), sums each encoded row's squares
  along the features and repeats that column across the block, takes the product of the encoded rows with the table's
  rows (both contracted along the features), and stores (0 − ((row norm − 2·product) + table norm)) / 256.
  Over the extended reals the narrowing to bf16 before each product is the identity, a product into the zero
  accumulator is the plain sum over the contracted axis, and 0 − s is −s: entry (p, q) of the stored block is `cell`
  of row p encoded, row q of the padded table, and entry q of the norm row.
-/
import proofs.«146590_j49993419325594_2_alg».proof.Proof.Gen.KernelIdeal.Skeleton
import proofs.«146590_j49993419325594_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.ProtoDist

/-- The encoder's product: rows × features, contracted over the 1024 inputs. -/
abbrev D1 : DotDims S2048x1024 S1024x256 S2048x256 := dot_S2048x1024_S1024x256_S2048x256_1_0_0_1_n_n
/-- The product with the prototype table: rows × prototypes, both operands contracted along their feature axis. -/
abbrev D2 : DotDims S2048x256 S128x256 S2048x128 := dot_S2048x256_S128x256_S2048x128_1_1_0_0_n_n

/-! ## The two products as sums over the contracted axis -/

theorem d1_lhs0 (i : S2048x256.Idx) (q : D1.contr.Idx) : (D1.lhsIdx i q 0).val = (i 0).val := by
  unfold DotDims.lhsIdx
  rw [dif_neg (show ¬(0 : Fin S2048x1024.rank) ∈ D1.lhsBatch by decide), dif_pos (show (0 : Fin S2048x1024.rank) ∈ D1.lhsNonContracting by decide)]
  rfl
theorem d1_rhs1 (i : S2048x256.Idx) (q : D1.contr.Idx) : (D1.rhsIdx i q 1).val = (i 1).val := by
  unfold DotDims.rhsIdx
  rw [dif_neg (show ¬(1 : Fin S1024x256.rank) ∈ D1.rhsBatch by decide), dif_pos (show (1 : Fin S1024x256.rank) ∈ D1.rhsNonContracting by decide)]
  rfl

/-- Entry (p, d) of the encoder's product is the sum over the inputs of row p times column d. -/
theorem mm1_apply (z0 : FVec Ideal S2048x1024 .bf16) (z1 : FVec Ideal S1024x256 .bf16) (p : Fin 2048) (d : Fin 256) :
    matmul D1 none z0 z1 (constant (F := Ideal) S2048x256 .f32 0x00000000#32) (ix2 (n0 := 2048) (n1 := 256) p d)
      = ∑ k : Fin 1024, z0 (ix2 (n0 := 2048) (n1 := 1024) p k) * z1 (ix2 (n0 := 1024) (n1 := 256) k d) := by
  simp only [matmul]
  rw [Ideal.matmul_constant_zero_apply, ← Equiv.sum_comp (contrEquiv1 D1 1024 rfl rfl).symm]
  refine Finset.sum_congr rfl fun k _ => ?_
  have hk := contrEquiv1_symm_val D1 1024 rfl rfl k
  have el : D1.lhsIdx (ix2 (n0 := 2048) (n1 := 256) p d) ((contrEquiv1 D1 1024 rfl rfl).symm k) = ix2 (n0 := 2048) (n1 := 1024) p k :=
    funext fun a => Fin.ext (by
      match a with
      | ⟨0, _⟩ => exact d1_lhs0 _ _
      | ⟨1, _⟩ => exact (D1.lhsIdx_val_of_single rfl _ _).trans hk)
  have er : D1.rhsIdx (ix2 (n0 := 2048) (n1 := 256) p d) ((contrEquiv1 D1 1024 rfl rfl).symm k) = ix2 (n0 := 1024) (n1 := 256) k d :=
    funext fun a => Fin.ext (by
      match a with
      | ⟨0, _⟩ => exact (D1.rhsIdx_val_of_single rfl _ _).trans hk
      | ⟨1, _⟩ => exact d1_rhs1 _ _)
  rw [el, er]

theorem d2_lhs0 (i : S2048x128.Idx) (q : D2.contr.Idx) : (D2.lhsIdx i q 0).val = (i 0).val := by
  unfold DotDims.lhsIdx
  rw [dif_neg (show ¬(0 : Fin S2048x256.rank) ∈ D2.lhsBatch by decide), dif_pos (show (0 : Fin S2048x256.rank) ∈ D2.lhsNonContracting by decide)]
  rfl
theorem d2_rhs0 (i : S2048x128.Idx) (q : D2.contr.Idx) : (D2.rhsIdx i q 0).val = (i 1).val := by
  unfold DotDims.rhsIdx
  rw [dif_neg (show ¬(0 : Fin S128x256.rank) ∈ D2.rhsBatch by decide), dif_pos (show (0 : Fin S128x256.rank) ∈ D2.rhsNonContracting by decide)]
  rfl

/-- Entry (p, q) of the product with the table is the sum over the features of row p times the table's row q. -/
theorem mm2_apply (z0 : FVec Ideal S2048x256 .bf16) (z1 : FVec Ideal S128x256 .bf16) (p : Fin 2048) (q : Fin 128) :
    matmul D2 none z0 z1 (constant (F := Ideal) S2048x128 .f32 0x00000000#32) (ix2 (n0 := 2048) (n1 := 128) p q)
      = ∑ d : Fin 256, z0 (ix2 (n0 := 2048) (n1 := 256) p d) * z1 (ix2 (n0 := 128) (n1 := 256) q d) := by
  simp only [matmul]
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 (n0 := 2048) (n1 := 128) p q) ((contrEquiv1 D2 256 rfl rfl).symm k) = ix2 (n0 := 2048) (n1 := 256) p k :=
    funext fun a => Fin.ext (by
      match a with
      | ⟨0, _⟩ => exact d2_lhs0 _ _
      | ⟨1, _⟩ => exact (D2.lhsIdx_val_of_single rfl _ _).trans hk)
  have er : D2.rhsIdx (ix2 (n0 := 2048) (n1 := 128) p q) ((contrEquiv1 D2 256 rfl rfl).symm k) = ix2 (n0 := 128) (n1 := 256) q k :=
    funext fun a => Fin.ext (by
      match a with
      | ⟨0, _⟩ => exact d2_rhs0 _ _
      | ⟨1, _⟩ => exact (D2.rhsIdx_val_of_single rfl _ _).trans hk)
  rw [el, er]

/-! ## The row sums kept as a column and repeated across the block; the two single rows repeated down it -/

/-- The sum of each row along the features, kept as a column and broadcast over the 128 columns, reads at (p, q) the
    sum of row p. -/
theorem rowSum_apply (v : FVec Ideal S2048x256 .f32) (p : Fin 2048) (q : Fin 128) :
    broadcastTo S2048x128 (shapeCast S2048x1 (multiReduction (F := Ideal) .add [1] S2048 v 0x00000000#32 reduces_S2048x256_S2048 (.inl rfl) rfl)
        shapeCasts_S2048_S2048x1) broadcasts_S2048x1_S2048x128 (ix2 (n0 := 2048) (n1 := 128) p q)
      = ∑ d : Fin 256, v (ix2 (n0 := 2048) (n1 := 256) p d) := by
  refine (broadcastTo_apply _ broadcasts_S2048x1_S2048x128 (ix2 (n0 := 2048) (n1 := 128) p q)
    (ix2 (n0 := 2048) (n1 := 1) p ⟨0, Nat.one_pos⟩) fun a => ?_).trans ?_
  · match a with
    | ⟨0, _⟩ => show p.val = if (2048 : Nat) = 1 then 0 else p.val; rw [if_neg (by decide)]
    | ⟨1, _⟩ => show 0 = if (1 : Nat) = 1 then 0 else q.val; rw [if_pos rfl]
  refine (shapeCast_apply _ shapeCasts_S2048_S2048x1 (ix2 (n0 := 2048) (n1 := 1) p ⟨0, Nat.one_pos⟩) (ix1 (n := 2048) p) ?_).trans ?_
  · rw [Shape.rowMajor_val_one, Shape.rowMajor_val_two]
    show p.val = p.val * 1 + 0
    omega
  refine (Ideal.multiReduction_add_single v 0x00000000#32 reduces_S2048x256_S2048 (.inl rfl) rfl (ix1 (n := 2048) p)).trans ?_
  exact Finset.sum_congr rfl fun d _ => congrArg v (funext fun a => Fin.ext (by
    match a with
    | ⟨0, _⟩ => rfl
    | ⟨1, _⟩ => rfl))

/-- The bias row, broadcast down the block, reads at (p, d) its entry d. -/
theorem biasRow_apply (v : Vec Ideal S1x256 .f32) (p : Fin 2048) (d : Fin 256) :
    broadcastTo S2048x256 (shapeCast S1x256 v shapeCasts_S1x256_S1x256) broadcasts_S1x256_S2048x256 (ix2 (n0 := 2048) (n1 := 256) p d)
      = v (ix2 (n0 := 1) (n1 := 256) 0 d) := by
  rw [shapeCast_self]
  exact broadcastTo_1b_ab_apply v broadcasts_S1x256_S2048x256 p d

/-- The table's norm row, broadcast down the block, reads at (p, q) its entry q. -/
theorem normRow_apply (v : Vec Ideal S1x128 .f32) (p : Fin 2048) (q : Fin 128) :
    broadcastTo S2048x128 (shapeCast S1x128 v shapeCasts_S1x128_S1x128) broadcasts_S1x128_S2048x128 (ix2 (n0 := 2048) (n1 := 128) p q)
      = v (ix2 (n0 := 1) (n1 := 128) 0 q) := by
  rw [shapeCast_self]
  exact broadcastTo_1b_ab_apply v broadcasts_S1x128_S2048x128 p q

/-! ## The encoded block, and the stored value -/

/-- The encoded block: the product of the input block with the weights, plus the bias row down the block. -/
def encB (x0 : Vec Ideal S2048x1024 .f32) (x1 : Vec Ideal S1024x256 .f32) (x2 : Vec Ideal S1x256 .f32) : FVec Ideal S2048x256 .f32 :=
  addf (matmul D1 none (truncf .bf16 x0 bitsLt_bf16_f32) (truncf .bf16 x1 bitsLt_bf16_f32) (constant (F := Ideal) S2048x256 .f32 0x00000000#32))
    (broadcastTo S2048x256 (shapeCast S1x256 x2 shapeCasts_S1x256_S1x256) broadcasts_S1x256_S2048x256)

/-- Entry (p, d) of the encoded block is feature d of row p encoded. -/
theorem encB_apply (x0 : Vec Ideal S2048x1024 .f32) (x1 : Vec Ideal S1024x256 .f32) (x2 : Vec Ideal S1x256 .f32) (p : Fin 2048) (d : Fin 256) :
    encB x0 x1 x2 (ix2 (n0 := 2048) (n1 := 256) p d)
      = enc (fun k => x0 (ix2 (n0 := 2048) (n1 := 1024) p k)) (fun k d => x1 (ix2 (n0 := 1024) (n1 := 256) k d))
          (fun d => x2 (ix2 (n0 := 1) (n1 := 256) 0 d)) d := by
  unfold encB
  rw [addf_apply, mm1_apply, biasRow_apply]
  rfl

/-- THE STORED VALUE at (p, q): `cell` of row p of the input block encoded, row q of the padded table, entry q of the
    norm row. -/
theorem pay_apply (x0 : Vec Ideal S2048x1024 .f32) (x1 : Vec Ideal S1024x256 .f32) (x2 : Vec Ideal S1x256 .f32)
    (x3 : Vec Ideal S128x256 .f32) (x4 : Vec Ideal S1x128 .f32) (p : Fin 2048) (q : Fin 128) :
    k0_pay1 (F := Ideal) x0 x1 x2 x3 x4 (ix2 (n0 := 2048) (n1 := 128) p q)
      = cell (enc (fun k => x0 (ix2 (n0 := 2048) (n1 := 1024) p k)) (fun k d => x1 (ix2 (n0 := 1024) (n1 := 256) k d))
            (fun d => x2 (ix2 (n0 := 1) (n1 := 256) 0 d)))
          (fun d => x3 (ix2 (n0 := 128) (n1 := 256) q d)) (x4 (ix2 (n0 := 1) (n1 := 128) 0 q)) := by
  unfold k0_pay1
  show Ideal.div (Ideal.ofBits .f32 0x00000000#32
      - ((broadcastTo S2048x128 (shapeCast S2048x1 (multiReduction (F := Ideal) .add [1] S2048 (mulf (encB x0 x1 x2) (encB x0 x1 x2)) 0x00000000#32
              reduces_S2048x256_S2048 (.inl rfl) rfl) shapeCasts_S2048_S2048x1) broadcasts_S2048x1_S2048x128 (ix2 (n0 := 2048) (n1 := 128) p q)
          - Ideal.ofBits .f32 0x40000000#32
            * matmul D2 none (truncf .bf16 (encB x0 x1 x2) bitsLt_bf16_f32) (truncf .bf16 (shapeCast S128x256 x3 shapeCasts_S128x256_S128x256) bitsLt_bf16_f32)
                (constant (F := Ideal) S2048x128 .f32 0x00000000#32) (ix2 (n0 := 2048) (n1 := 128) p q))
        + broadcastTo S2048x128 (shapeCast S1x128 x4 shapeCasts_S1x128_S1x128) broadcasts_S1x128_S2048x128 (ix2 (n0 := 2048) (n1 := 128) p q)))
    (Ideal.ofBits .f32 0x43800000#32) = _
  rw [rowSum_apply, mm2_apply, normRow_apply, Ideal.ofBits_zero_f32, zero_sub]
  simp only [mulf_apply, truncf_apply, encB_apply, shapeCast_self]
  rfl

end Cert.KernelIdeal.Body

end
-- ==== Proof.Blocks.lean ====
/-
  From the eight row blocks to the whole array.

  The grid has eight points.  At point t the pipeline hands the body rows 2048·t … 2048·t + 2047 of the input and the
  whole of the four other arrays (their block index is 0 on both axes, and the block is the array), and writes the
  body's block back to rows 2048·t … of the 128-column output.  So what point t writes back is the block at t of ONE
  function of the arrays the region finds, `negMsePadded`: entry (p, q) of the stored block is entry (2048·t + p, q)
  of it.  Every row r of the output lies in the block of point r / 2048, and every point writes back, so after the
  last point the output array is that function.
-/
import proofs.«146590_j49993419325594_2_alg».proof.Proof.Gen.KernelIdeal.Frame
import proofs.«146590_j49993419325594_2_alg».proof.Proof.Payload
import proofs.«146590_j49993419325594_2_alg».proof.Proof.Cell
import Idealize.ShloMosaic.Lib.Pipeline.Value
import Idealize.ShloMosaic.Lib.ValueIdx

noncomputable section

open scoped BigOperators

namespace Cert.KernelIdeal.Blocks

open Cert.KernelIdeal Cert.KernelIdeal.Gen
open Idealize.ShloMosaic Idealize.ShloMosaic.TcCoe Idealize.SL.Sem
open Idealize.ShloMosaic.Pipeline (Dat)
open Idealize.ShloMosaic.ValueIdx Cert.ProtoDist

variable (m : (ℓ : Loc nD τ sig) → Buf (Elt Ideal) ℓ)

theorem zero_offsets : (![0, 0] : Fin 2 → Nat) = fun _ => 0 := funext fun a => by fin_cases a <;> rfl

/-- The block index of each window at each point: the input rows and the output rows move with the point, the other
    four windows stay at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One point, over plain arrays -/

/-- If the body's input block is rows 2048·n … of `A0` and its other four loads are the whole arrays, the stored
    value at (p, q) is entry (2048·n + p, q) of `negMsePadded`. -/
theorem point_entry (A0 : S16384x1024.Idx → EReal) (A1 : S1024x256.Idx → EReal) (A2 : S1x256.Idx → EReal)
    (A3 : S128x256.Idx → EReal) (A4 : S1x128.Idx → EReal)
    (x0 : Vec Ideal S2048x1024 .f32) (x1 : Vec Ideal S1024x256 .f32) (x2 : Vec Ideal S1x256 .f32)
    (x3 : Vec Ideal S128x256 .f32) (x4 : Vec Ideal S1x128 .f32) (n : Nat) (hn : n < 8)
    (h0 : ∀ (p : Fin 2048) (k : Fin 1024),
      x0 (ix2 (n0 := 2048) (n1 := 1024) p k) = A0 (ix2 (n0 := 16384) (n1 := 1024) ⟨n * 2048 + p.val, by omega⟩ k))
    (h1 : x1 = A1) (h2 : x2 = A2) (h3 : x3 = A3) (h4 : x4 = A4) (p : Fin 2048) (q : Fin 128) :
    k0_pay1 (F := Ideal) x0 x1 x2 x3 x4 (ix2 (n0 := 2048) (n1 := 128) p q)
      = negMsePadded A0 A1 A2 A3 A4 (ix2 (n0 := 16384) (n1 := 128) ⟨n * 2048 + p.val, by omega⟩ q) := by
  subst h1 h2 h3 h4
  rw [Body.pay_apply]
  unfold negMsePadded
  simp only [h0]

/-! ## The blocks the pipeline hands the body -/

/-- The input block at point t is rows 2048·t … of the input array. -/
theorem rows_block (c : Dev nD) (t : Fin cfg0.N) (ht : t.val < 8) (p : Fin 2048) (k : Fin 1024) :
    (iblk m c 0 t : Vec Ideal S2048x1024 .f32) (ix2 (n0 := 2048) (n1 := 1024) p k)
      = (V m c main_arg0 : S16384x1024.Idx → EReal) (ix2 (n0 := 16384) (n1 := 1024) ⟨t.val * 2048 + p.val, by omega⟩ k) := by
  obtain ⟨e00, e01, -⟩ := index_maps t
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * p.val = t.val * 2048 + p.val; rw [e00]; omega
  | ⟨1, _⟩ => show win0_0.index t (1 : Fin 2) * 1024 + 1 * k.val = k.val; rw [e01]; omega

/-- The weights' block at every point is the whole array. -/
theorem weights_block (c : Dev nD) (t : Fin cfg0.N) :
    (iblk m c 1 t : Vec Ideal S1024x256 .f32) = (V m c main_arg1 : S1024x256.Idx → EReal) := by
  obtain ⟨-, -, e10, e11, -⟩ := index_maps t
  funext y
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * (y 0).val = (y 0).val; rw [e10]; omega
  | ⟨1, _⟩ => show win0_1.index t (1 : Fin 2) * 256 + 1 * (y 1).val = (y 1).val; rw [e11]; omega

/-- The bias row's block is the whole row. -/
theorem bias_block (c : Dev nD) (t : Fin cfg0.N) :
    (iblk m c 2 t : Vec Ideal S1x256 .f32) = (V m c main_v4 : S1x256.Idx → EReal) := by
  obtain ⟨-, -, -, -, e20, e21, -⟩ := index_maps t
  funext y
  unfold iblk
  rw [View.read_apply]
  show V m c main_v4 _ = V m c main_v4 _
  refine congrArg (V m c main_v4) (funext fun a => Fin.ext ?_)
  match a with
  | ⟨0, _⟩ => show win0_2.index t (0 : Fin 2) * 1 + 1 * (y 0).val = (y 0).val; rw [e20]; omega
  | ⟨1, _⟩ => show win0_2.index t (1 : Fin 2) * 256 + 1 * (y 1).val = (y 1).val; rw [e21]; omega

/-- The padded table's block is the whole table. -/
theorem table_block (c : Dev nD) (t : Fin cfg0.N) :
    (iblk m c 3 t : Vec Ideal S128x256 .f32) = (V m c main_v0 : S128x256.Idx → EReal) := by
  obtain ⟨-, -, -, -, -, -, e30, e31, -⟩ := index_maps t
  funext y
  unfold iblk
  rw [View.read_apply]
  show V m c main_v0 _ = V m c main_v0 _
  refine congrArg (V m c main_v0) (funext fun a => Fin.ext ?_)
  match a with
  | ⟨0, _⟩ => show win0_3.index t (0 : Fin 2) * 128 + 1 * (y 0).val = (y 0).val; rw [e30]; omega
  | ⟨1, _⟩ => show win0_3.index t (1 : Fin 2) * 256 + 1 * (y 1).val = (y 1).val; rw [e31]; omega

/-- The norm row's block is the whole row. -/
theorem norms_block (c : Dev nD) (t : Fin cfg0.N) :
    (iblk m c 4 t : Vec Ideal S1x128 .f32) = (V m c main_v3 : S1x128.Idx → EReal) := by
  obtain ⟨-, -, -, -, -, -, -, -, e40, e41, -⟩ := index_maps t
  funext y
  unfold iblk
  rw [View.read_apply]
  show V m c main_v3 _ = V m c main_v3 _
  refine congrArg (V m c main_v3) (funext fun a => Fin.ext ?_)
  match a with
  | ⟨0, _⟩ => show win0_4.index t (0 : Fin 2) * 1 + 1 * (y 0).val = (y 0).val; rw [e40]; omega
  | ⟨1, _⟩ => show win0_4.index t (1 : Fin 2) * 128 + 1 * (y 1).val = (y 1).val; rw [e41]; omega

/-! ## What a point writes back, and the array after the last point -/

/-- The 128-column array of the arrays the region finds. -/
abbrev outArr (c : Dev nD) : S16384x128.Idx → EReal :=
  negMsePadded (V m c main_arg0) (V m c main_arg1) (V m c main_v4) (V m c main_v0) (V m c main_v3)

/-- WHAT POINT t WRITES BACK is the block at t of `outArr`. -/
theorem flushed_eq (c : Dev nD) (t : Fin cfg0.N) :
    (dats m 0 c).flushed 5 t = ((cfg0.win 5).blk t).view.read (Elt Ideal) (outArr m c) := by
  have ht : t.val < 8 := by have h1 := t.isLt; have h2 : cfg0.N = 8 := N_0; omega
  obtain ⟨-, -, -, -, -, -, -, -, -, -, e50, e51⟩ := index_maps t
  show (cfg0.win 5).cut (grid0.coords t) ((dats m 0 c).after 5 t) = _
  rw [after0_5]
  unfold out0_5
  rw [View.canon_unit_zero zero_offsets]
  simp only [View.ld_unit_zero (S := S2048x1024) zero_offsets, View.ld_unit_zero (S := S1024x256) zero_offsets,
    View.ld_unit_zero (S := S1x256) zero_offsets, View.ld_unit_zero (S := S128x256) zero_offsets,
    View.ld_unit_zero (S := S1x128) zero_offsets]
  funext j
  obtain ⟨p, q, rfl⟩ : ∃ (p : Fin 2048) (q : Fin 128), j = ix2 (n0 := 2048) (n1 := 128) p q :=
    ⟨j 0, j 1, eq_ix2 (n0 := 2048) (n1 := 128) j⟩
  show k0_pay1 (F := Ideal) (iblk m c 0 t) (iblk m c 1 t) (iblk m c 2 t) (iblk m c 3 t) (iblk m c 4 t) (ix2 (n0 := 2048) (n1 := 128) p q)
    = outArr m c (((cfg0.win 5).blk t).view.emb (ix2 (n0 := 2048) (n1 := 128) p q))
  refine (point_entry (V m c main_arg0) (V m c main_arg1) (V m c main_v4) (V m c main_v0) (V m c main_v3)
    (iblk m c 0 t) (iblk m c 1 t) (iblk m c 2 t) (iblk m c 3 t) (iblk m c 4 t) t.val ht
    (fun p k => rows_block m c t ht p k) (weights_block m c t) (bias_block m c t) (table_block m c t) (norms_block m c t) p q).trans ?_
  refine congrArg (outArr m c) (funext fun a => Fin.ext ?_)
  match a with
  | ⟨0, _⟩ => show t.val * 2048 + p.val = win0_5.index t (0 : Fin 2) * 2048 + 1 * p.val; rw [e50]; omega
  | ⟨1, _⟩ => show q.val = win0_5.index t (1 : Fin 2) * 128 + 1 * q.val; rw [e51]; omega

/-- An index of the output array is in point t's block iff each coordinate is in the block's range. -/
theorem mem_block (t : Fin cfg0.N) (i : S16384x128.Idx) :
    i ∈ ((cfg0.win 5).blk t).view.set ↔ ∀ a : Fin 2, win0_5.index t a * S2048x128.size a ≤ (i a).val
      ∧ (i a).val < win0_5.index t a * S2048x128.size a + S2048x128.size a := by
  show i ∈ ((View.whole main_v5).slice (win0_5.rect t)).set ↔ _
  rw [View.set_slice_whole, Rect.mem_set_unit]
  exact Iff.rfl

/-- Every row r of the output lies in the block of point r / 2048. -/
theorem covered (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  have hN : cfg0.N = 8 := N_0
  refine ⟨⟨(i 0).val / 2048, by omega⟩, flush0_5 _, ?_⟩
  obtain ⟨-, -, -, -, -, -, -, -, -, -, e50, e51⟩ := index_maps ⟨(i 0).val / 2048, by omega⟩
  rw [mem_block]
  intro a
  match a with
  | ⟨0, _⟩ =>
    show win0_5.index _ (0 : Fin 2) * 2048 ≤ (i 0).val ∧ (i 0).val < win0_5.index _ (0 : Fin 2) * 2048 + 2048
    rw [e50]
    show (i 0).val / 2048 * 2048 ≤ (i 0).val ∧ (i 0).val < (i 0).val / 2048 * 2048 + 2048
    omega
  | ⟨1, _⟩ =>
    show win0_5.index _ (1 : Fin 2) * 128 ≤ (i 1).val ∧ (i 1).val < win0_5.index _ (1 : Fin 2) * 128 + 128
    rw [e51]
    omega

/-- THE OUTPUT ARRAY after the last point is `outArr`. -/
theorem final (c : Dev nD) : (dats m 0 c).arrAt 5 cfg0.N = outArr m c :=
  (dats m 0 c).arrAt_eq_of_cover 5 (outArr m c) (fun t _ => flushed_eq m c t) covered

end Cert.KernelIdeal.Blocks

end
-- ==== Proof.Entry.lean ====
/-
  The arrays the region finds, and why the padding does not matter.

  Before the region the host pads the prototype table with 28 rows of a fill value to 128 rows, squares it and sums
  each row (a sum started from the zero word) into 128 norms laid out as one row, and lays the bias out as one row.
  Read at an index: row c of the padded table, for c below 100, is row c of the table; entry q of the norm row is the
  sum of the squares of the padded table's row q; entry d of the bias row is entry d of the bias.  So at a column
  below 100 the 128-column array `negMsePadded` over these three is `negMse`: the fill rows are only read by columns
  100 … 127.
-/
import proofs.«146590_j49993419325594_2_alg».proof.Proof.Gen.KernelIdeal.Frame
import proofs.«146590_j49993419325594_2_alg».proof.Proof.Cell
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Entry

open Cert.KernelIdeal Cert.KernelIdeal.Gen
open Idealize.ShloMosaic Idealize.ShloMosaic.TcCoe Idealize.SL.Sem Idealize.ShloMosaic.StableHlo
open Idealize.ShloMosaic.ValueIdx Cert.ProtoDist

/-! ## The three host-made arrays as functions of the arguments -/

/-- The bias as one row. -/
def biasRow (b : S256.Idx → EReal) : S1x256.Idx → EReal := shapeCast S1x256 b shapeCasts_S256_S1x256

/-- The prototype table padded below with 28 rows of the fill value (the integer 0 converted to a float). -/
def tablePad (P : S100x256.Idx → EReal) : S128x256.Idx → EReal :=
  pad S128x256 ![0, 0] ![28, 0] ![0, 0] P (sitofp (F := Ideal) .f32 (constantI S_ 32 0#32)) pads_S100x256_S128x256_0280_000 h_S_

/-- The squared norms of a 128-row table's rows, as one row. -/
def tableNorms (T : S128x256.Idx → EReal) : S1x128.Idx → EReal :=
  shapeCast S1x128 (Host.reduceAdd (F := Ideal) (mulf T T) (constant (F := Ideal) S_ .f32 0x00000000#32) reducesTo_S128x256_S128_d1 h_S_)
    shapeCasts_S128_S1x128

/-- Entry d of the bias row is entry d of the bias. -/
theorem biasRow_apply (b : S256.Idx → EReal) (d : Fin 256) :
    biasRow b (ix2 (n0 := 1) (n1 := 256) 0 d) = b (ix1 (n := 256) d) :=
  shapeCast_a_1a_apply b shapeCasts_S256_S1x256 0 d

/-- Row c of the padded table, c below 100, is row c of the table. -/
theorem tablePad_apply (P : S100x256.Idx → EReal) (c : Fin 100) (d : Fin 256) :
    tablePad P (ix2 (n0 := 128) (n1 := 256) ⟨c.val, by omega⟩ d) = P (ix2 (n0 := 100) (n1 := 256) c d) := by
  unfold tablePad pad
  have hin : ∀ a : Fin S100x256.rank, (![0, 0] : Fin 2 → Nat) a ≤ ((ix2 (n0 := 128) (n1 := 256) ⟨c.val, by omega⟩ d) (a.cast pads_S100x256_S128x256_0280_000.1)).val
      ∧ (((ix2 (n0 := 128) (n1 := 256) ⟨c.val, by omega⟩ d) (a.cast pads_S100x256_S128x256_0280_000.1)).val - (![0, 0] : Fin 2 → Nat) a) % ((![0, 0] : Fin 2 → Nat) a + 1) = 0
      ∧ (((ix2 (n0 := 128) (n1 := 256) ⟨c.val, by omega⟩ d) (a.cast pads_S100x256_S128x256_0280_000.1)).val - (![0, 0] : Fin 2 → Nat) a) / ((![0, 0] : Fin 2 → Nat) a + 1) < S100x256.size a := by
    intro a
    match a with
    | ⟨0, _⟩ =>
      show 0 ≤ c.val ∧ (c.val - 0) % (0 + 1) = 0 ∧ (c.val - 0) / (0 + 1) < 100
      have := c.isLt
      refine ⟨Nat.zero_le _, Nat.mod_one _, ?_⟩
      rw [Nat.div_one]; omega
    | ⟨1, _⟩ =>
      show 0 ≤ d.val ∧ (d.val - 0) % (0 + 1) = 0 ∧ (d.val - 0) / (0 + 1) < 256
      have := d.isLt
      refine ⟨Nat.zero_le _, Nat.mod_one _, ?_⟩
      rw [Nat.div_one]; omega
  rw [dif_pos hin]
  refine congrArg P (funext fun a => Fin.ext ?_)
  match a with
  | ⟨0, _⟩ => show (c.val - 0) / (0 + 1) = c.val; rw [Nat.div_one]; rfl
  | ⟨1, _⟩ => show (d.val - 0) / (0 + 1) = d.val; rw [Nat.div_one]; rfl

/-- Entry q of the norm row is the sum of the squares of the table's row q (the host's sum starts from 0). -/
theorem tableNorms_apply (T : S128x256.Idx → EReal) (q : Fin 128) :
    tableNorms T (ix2 (n0 := 1) (n1 := 128) 0 q)
      = ∑ d : Fin 256, T (ix2 (n0 := 128) (n1 := 256) q d) * T (ix2 (n0 := 128) (n1 := 256) q d) := by
  unfold tableNorms
  refine (shapeCast_a_1a_apply _ shapeCasts_S128_S1x128 0 q).trans ?_
  simp only [Host.reduceAdd, Ideal.hostReduceAdd_def]
  rw [Ideal.hostReduceAdd_single reducesTo_S128x256_S128_d1 (by decide)]
  show Ideal.ofBits .f32 0x00000000#32 + _ = _
  rw [Ideal.ofBits_zero_f32, zero_add]
  exact Finset.sum_congr rfl fun k _ => congrArg (fun j => T j * T j) (funext fun a => Fin.ext (by
    match a with
    | ⟨0, _⟩ => rfl
    | ⟨1, _⟩ => rfl))

/-! ## Columns 0 … 99 of the padded result are the result -/

/-- At a column below 100 the 128-column array over the bias row, the padded table and its norms is `negMse`. -/
theorem negMsePadded_eq_negMse (x : S16384x1024.Idx → EReal) (W : S1024x256.Idx → EReal) (b : S256.Idx → EReal) (P : S100x256.Idx → EReal)
    (r : Fin 16384) (c : Fin 100) :
    negMsePadded x W (biasRow b) (tablePad P) (tableNorms (tablePad P)) (ix2 (n0 := 16384) (n1 := 128) r ⟨c.val, by omega⟩)
      = negMse x W b P (ix2 (n0 := 16384) (n1 := 100) r c) := by
  unfold negMsePadded negMse
  show cell (enc (fun k => x (ix2 (n0 := 16384) (n1 := 1024) r k)) (fun k d => W (ix2 (n0 := 1024) (n1 := 256) k d))
        (fun d => biasRow b (ix2 (n0 := 1) (n1 := 256) 0 d)))
      (fun d => tablePad P (ix2 (n0 := 128) (n1 := 256) ⟨c.val, by omega⟩ d))
      (tableNorms (tablePad P) (ix2 (n0 := 1) (n1 := 128) 0 ⟨c.val, by omega⟩))
    = cell (enc (fun k => x (ix2 (n0 := 16384) (n1 := 1024) r k)) (fun k d => W (ix2 (n0 := 1024) (n1 := 256) k d))
        (fun d => b (ix1 (n := 256) d)))
      (fun d => P (ix2 (n0 := 100) (n1 := 256) c d))
      (∑ d : Fin 256, P (ix2 (n0 := 100) (n1 := 256) c d) * P (ix2 (n0 := 100) (n1 := 256) c d))
  rw [tableNorms_apply]
  simp only [biasRow_apply, tablePad_apply]

/-! ## The region finds them -/

variable (m : (ℓ : Loc nD τ sig) → Buf (Elt Ideal) ℓ)

/-- The bias row the region finds is the bias argument laid out as one row. -/
theorem V_bias (c : Dev nD) :
    (V m c main_v4 : S1x256.Idx → EReal) = biasRow (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results
  rfl

/-- The table the region finds is the prototype argument padded. -/
theorem V_table (c : Dev nD) :
    (V m c main_v0 : S128x256.Idx → EReal) = tablePad (m ((c : Thread nD τ).loc main_arg3)) := by
  dsimp only [Gen.V, Gen.V0]
  simp only [Gen.hostOps0, Gen.hostOps0_1, Gen.hostOps0_2, List.flatten_cons, List.flatten_nil, List.append_nil, List.cons_append,
    List.nil_append]
  after_results
  rfl

/-- The norm row the region finds is the padded table's. -/
theorem V_norms (c : Dev nD) :
    (V m c main_v3 : S1x128.Idx → EReal) = tableNorms (tablePad (m ((c : Thread nD τ).loc main_arg3))) := by
  dsimp only [Gen.V, Gen.V0]
  simp only [Gen.hostOps0, Gen.hostOps0_1, Gen.hostOps0_2, List.flatten_cons, List.flatten_nil, List.append_nil, List.cons_append,
    List.nil_append]
  after_results
  rfl

end Cert.KernelIdeal.Entry

end
-- ==== Proof.KernelRun.lean ====
/-
  The kernel's program ends with `negMse` of its arguments in its result.

  After the region the host keeps columns 0 … 99 of the 128-column output.  The region leaves that output at
  `negMsePadded` of the arrays it found (the eight row blocks tile it), those arrays are the input, the weights, the
  bias laid out as a row, the prototype table padded and the padded table's norms, and at a column below 100 the
  padded array is `negMse`.  So entry (r, c) of the program's result is entry (r, c) of `negMse`; the four arguments
  end as they were launched.
-/
import proofs.«146590_j49993419325594_2_alg».proof.Proof.Gen.KernelIdeal.Frame
import proofs.«146590_j49993419325594_2_alg».proof.Proof.Blocks
import proofs.«146590_j49993419325594_2_alg».proof.Proof.Entry
import proofs.«146590_j49993419325594_2_alg».proof.Proof.Cell
import Idealize.ShloMosaic.Lib.StableHlo.Run
import Idealize.ShloMosaic.Lib.Pipeline.Value
import Idealize.ShloMosaic.Lib.ValueIdx

noncomputable section

namespace Cert.KernelIdeal.Run

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.ProtoDist

variable (m : (ℓ : Loc nD τ sig) → Buf (Elt Ideal) ℓ) (ρ : Dev nD → PrngReg)

/-- The result the lines after the region leave: the first 100 columns of the region's output, which is `negMse`
    of the arguments. -/
theorem result_eq (c : Dev nD) :
    (Pipeline.afterTail₀ cfgs (dats m) 0 (V0 m) [hostOps1] c main_v6 : S16384x100.Idx → EReal)
      = negMse (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  funext i
  obtain ⟨r, q, rfl⟩ : ∃ (r : Fin 16384) (q : Fin 100), i = ix2 (n0 := 16384) (n1 := 100) r q :=
    ⟨i 0, i 1, eq_ix2 (n0 := 16384) (n1 := 100) i⟩
  refine (extractStridedSlice_apply ![0, 0] _ slices_S16384x128_S16384x100_0_0 (ix2 (n0 := 16384) (n1 := 100) r q)
    (ix2 (n0 := 16384) (n1 := 128) r ⟨q.val, by omega⟩) (fun a => ?_)).trans ?_
  · match a with
    | ⟨0, _⟩ => show r.val = 0 + r.val; omega
    | ⟨1, _⟩ => show q.val = 0 + q.val; omega
  rw [show Pipeline.withArrays (cfgs 0).spec c (V0 m c) (fun w => (dats m 0 c).arrAt w (cfgs 0).N) (Proc.devRef .tc main_v5)
      = Blocks.outArr m c from
    (Pipeline.withArrays_arr spec0 launch0.win.arr_inj c _ _ 5).trans (Blocks.final m c)]
  show negMsePadded (V m c main_arg0) (V m c main_arg1) (V m c main_v4) (V m c main_v0) (V m c main_v3)
      (ix2 (n0 := 16384) (n1 := 128) r ⟨q.val, by omega⟩) = _
  rw [V_main_arg0, V_main_arg1, Entry.V_bias, Entry.V_table, Entry.V_norms]
  exact Entry.negMsePadded_eq_negMse _ _ _ _ r q

/-- THE RUN: every weakly fair execution of the kernel's program terminates with its result at `negMse` of the
    arguments and the arguments as launched. -/
theorem run : θ_run defs (onTc (τ := τ) (main (F := Ideal))) ⟨m, fun _ => 0, ρ⟩ fun r => ∀ c : Dev nD,
      r.2.mem ((c.tc : Thread nD τ).loc main_v6)
        = negMse (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.lean ====
/-
  A Pallas kernel that scores 16384 encoded rows against 100 class prototypes equals its jnp reference over the
  extended reals.

  Both programs encode each input row, z = x·W + b (1024 inputs, 256 features), and return for every row r and
  prototype c the negated mean squared distance −|z_r − P_c|² / 256 in the expanded form
  −((∑_d z_d²) − 2·(∑_d z_d·P_cd) + ∑_d P_cd²) / 256.  The reference does it with whole-array operations.  The kernel
  pads the prototype table to 128 rows, has the host sum the padded rows' squares once, walks the input in eight
  blocks of 2048 rows, computes a 128-column block per step (narrowing to bf16 before each product, which is the
  identity on extended reals) and finally keeps columns 0 … 99.  No step uses a law that fails at the infinities —
  a product into a zero accumulator is the plain sum, a sum started from the zero word is the sum, 0 − s is −s, and
  the two programs group every sum and product the same way — so the precondition (finite inputs) is never opened.

  `Proof/Cell.lean` states the entry and the two arrays; `Proof/RefValue.lean` reads the reference's run at an index;
  `Proof/Payload.lean` reads the kernel body's stored block at an index; `Proof/Entry.lean` reads the arrays the host
  prepares and shows the padding is not seen below column 100; `Proof/Blocks.lean` goes from the eight blocks to the
  output array; `Proof/KernelRun.lean` reads the kept columns and states the kernel program's run.  The frames of the
  two kernel programs and the reference's run are the generated modules'.
-/
import proofs.«146590_j49993419325594_2_alg».proof.Defs
import proofs.«146590_j49993419325594_2_alg».proof.Proof.Gen.Kernel
import proofs.«146590_j49993419325594_2_alg».proof.Proof.Gen.Kernel.Frame
import proofs.«146590_j49993419325594_2_alg».proof.Proof.Gen.KernelIdeal
import proofs.«146590_j49993419325594_2_alg».proof.Proof.Gen.KernelIdeal.Frame
import proofs.«146590_j49993419325594_2_alg».proof.Proof.Gen.ReferenceIdeal
import proofs.«146590_j49993419325594_2_alg».proof.Proof.Gen.ReferenceIdeal.Run
import proofs.«146590_j49993419325594_2_alg».proof.Proof.Gen.ReferenceIdeal.Read
import proofs.«146590_j49993419325594_2_alg».proof.Proof.Gen.Pre_finite_inputs
import proofs.«146590_j49993419325594_2_alg».proof.Proof.RefValue
import proofs.«146590_j49993419325594_2_alg».proof.Proof.KernelRun

noncomputable section

namespace Cert.Proof

open Idealize.ShloMosaic Idealize.SL.Sem

/-- The word-level kernel program runs, faults nowhere and leaves its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories that agree on the four arguments both idealized programs end with `negMse` of them in their
    result: the kernel program by its run, the reference by its generated run read index by index. -/
theorem algebraic : Cert.algebraic_KernelIdeal_ReferenceIdeal := by
  intro m ρ m' ρ' _ hagree
  refine ⟨fun c => Cert.ProtoDist.negMse
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
